-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x32 : Shape := ⟨3, ![4, 1024, 32]⟩
abbrev S4x1024x64 : Shape := ⟨3, ![4, 1024, 64]⟩
abbrev S32x32 : Shape := ⟨2, ![32, 32]⟩
abbrev S32 : Shape := ⟨1, ![32]⟩
abbrev S_ : Shape := ⟨0, ![]⟩

class Facts : Prop where
  bcast_S_S4x1024x32 : S_.BroadcastsInDim S4x1024x32 (![] : Fin 0 → Fin S4x1024x32.rank)
  reducesTo_S4x1024x32_S_d0_1_2 : S4x1024x32.ReducesTo [0, 1, 2] S_
  h_S_ : 0 < S_.numel
  bcast_S_S4x1024x64 : S_.BroadcastsInDim S4x1024x64 (![] : Fin 0 → Fin S4x1024x64.rank)
  reducesTo_S4x1024x64_S_d0_1_2 : S4x1024x64.ReducesTo [0, 1, 2] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S4x1024x32 .f32) (main_arg1 : FVec F S4x1024x32 .f32) (main_arg2 : FVec F S4x1024x64 .f32) (main_arg3 : FVec F S32x32 .f32) (main_arg4 : FVec F S32 .f32) : IVec S_ 1 :=
  let main_v0 : FVec F S4x1024x32 .f32 := Host.absf main_arg0
  let main_cst : FVec F S_ .f32 := constant S_ .f32 0x7F800000#32
  let main_v1 : FVec F S4x1024x32 .f32 := broadcastInDim S4x1024x32 ![] bcast_S_S4x1024x32 main_cst
  let main_v2 : IVec S4x1024x32 1 := cmpf .olt main_v0 main_v1
  let main_c : IVec S_ 1 := constantI S_ 1 1#1
  let main_v3 : IVec S_ 1 := (fun x v => Host.reduce IntOp.andi x v reducesTo_S4x1024x32_S_d0_1_2 h_S_) main_v2 main_c
  let main_v4 : FVec F S4x1024x32 .f32 := Host.absf main_arg1
  let main_cst_0 : FVec F S_ .f32 := constant S_ .f32 0x7F800000#32
  let main_v5 : FVec F S4x1024x32 .f32 := broadcastInDim S4x1024x32 ![] bcast_S_S4x1024x32 main_cst_0
  let main_v6 : IVec S4x1024x32 1 := cmpf .olt main_v4 main_v5
  let main_c_1 : IVec S_ 1 := constantI S_ 1 1#1
  let main_v7 : IVec S_ 1 := (fun x v => Host.reduce IntOp.andi x v reducesTo_S4x1024x32_S_d0_1_2 h_S_) main_v6 main_c_1
  let main_v8 : IVec S_ 1 := andi main_v3 main_v7
  let main_v9 : FVec F S4x1024x64 .f32 := Host.absf main_arg2
  let main_cst_2 : FVec F S_ .f32 := constant S_ .f32 0x7F800000#32
  let main_v10 : FVec F S4x1024x64 .f32 := broadcastInDim S4x1024x64 ![] bcast_S_S4x1024x64 main_cst_2
  let main_v11 : IVec S4x1024x64 1 := cmpf .olt main_v9 main_v10
  let main_c_3 : IVec S_ 1 := constantI S_ 1 1#1
  let main_v12 : IVec S_ 1 := (fun x v => Host.reduce IntOp.andi x v reducesTo_S4x1024x64_S_d0_1_2 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S4x1024x32 : Shape := ⟨3, ![4, 1024, 32]⟩
abbrev S4x1024x64 : Shape := ⟨3, ![4, 1024, 64]⟩
abbrev S32x32 : Shape := ⟨2, ![32, 32]⟩
abbrev S32 : Shape := ⟨1, ![32]⟩
abbrev S1x32 : Shape := ⟨2, ![1, 32]⟩
abbrev S1x1024x32 : Shape := ⟨3, ![1, 1024, 32]⟩
abbrev S1x128x32 : Shape := ⟨3, ![1, 128, 32]⟩
abbrev S1x1024x64 : Shape := ⟨3, ![1, 1024, 64]⟩
abbrev S1x128x64 : Shape := ⟨3, ![1, 128, 64]⟩
abbrev S1024x32 : Shape := ⟨2, ![1024, 32]⟩
abbrev S128x32 : Shape := ⟨2, ![128, 32]⟩
abbrev S1024x64 : Shape := ⟨2, ![1024, 64]⟩
abbrev S32x1024 : Shape := ⟨2, ![32, 1024]⟩
abbrev S128x1024 : Shape := ⟨2, ![128, 1024]⟩
abbrev S1x1024 : Shape := ⟨2, ![1, 1024]⟩
abbrev S128x1 : Shape := ⟨2, ![128, 1]⟩
abbrev S128x64 : Shape := ⟨2, ![128, 64]⟩

abbrev nBuf : Space → Nat
  | .hbm => 7
  | .vmem => 10
  | .smem => 0
  | _ => 0

abbrev bufTy : (tb : Table) → Fin (tcTables nBuf tb) → BufTy
  | .hbm, ⟨0, _⟩ => ⟨S4x1024x32, .f32⟩
  | .hbm, ⟨1, _⟩ => ⟨S4x1024x32, .f32⟩
  | .hbm, ⟨2, _⟩ => ⟨S4x1024x64, .f32⟩
  | .hbm, ⟨3, _⟩ => ⟨S32x32, .f32⟩
  | .hbm, ⟨4, _⟩ => ⟨S32, .f32⟩
  | .hbm, ⟨5, _⟩ => ⟨S1x32, .f32⟩
  | .hbm, ⟨6, _⟩ => ⟨S4x1024x64, .f32⟩
  | .local _ .vmem, ⟨0, _⟩ => ⟨S1x1024x32, .f32⟩
  | .local _ .vmem, ⟨1, _⟩ => ⟨S1x1024x32, .f32⟩
  | .local _ .vmem, ⟨2, _⟩ => ⟨S1x128x32, .f32⟩
  | .local _ .vmem, ⟨3, _⟩ => ⟨S1x128x32, .f32⟩
  | .local _ .vmem, ⟨4, _⟩ => ⟨S1x1024x64, .f32⟩
  | .local _ .vmem, ⟨5, _⟩ => ⟨S1x1024x64, .f32⟩
  | .local _ .vmem, ⟨6, _⟩ => ⟨S32x32, .f32⟩
  | .local _ .vmem, ⟨7, _⟩ => ⟨S1x32, .f32⟩
  | .local _ .vmem, ⟨8, _⟩ => ⟨S1x128x64, .f32⟩
  | .local _ .vmem, ⟨9, _⟩ => ⟨S1x128x64, .f32⟩
  | _, _ => ⟨S4x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S32_S1x32 : S32.ShapeCasts S1x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  transposes_S32x32_p1_0_S32x32 : S32x32.Transposes [1, 0] S32x32
  slices_S32x1024_o0_0_S1x1024 : S32x1024.Slices ![0, 0] S1x1024
  slices_S128x32_o0_0_S128x1 : S128x32.Slices ![0, 0] S128x1
  broadcasts_S1x1024_S128x1024 : S1x1024.Broadcasts S128x1024
  broadcasts_S128x1_S128x1024 : S128x1.Broadcasts S128x1024
  slices_S32x1024_o1_0_S1x1024 : S32x1024.Slices ![1, 0] S1x1024
  slices_S128x32_o0_1_S128x1 : S128x32.Slices ![0, 1] S128x1
  slices_S32x1024_o2_0_S1x1024 : S32x1024.Slices ![2, 0] S1x1024
  slices_S128x32_o0_2_S128x1 : S128x32.Slices ![0, 2] S128x1
  slices_S32x1024_o3_0_S1x1024 : S32x1024.Slices ![3, 0] S1x1024
  slices_S128x32_o0_3_S128x1 : S128x32.Slices ![0, 3] S128x1
  slices_S32x1024_o4_0_S1x1024 : S32x1024.Slices ![4, 0] S1x1024
  slices_S128x32_o0_4_S128x1 : S128x32.Slices ![0, 4] S128x1
  slices_S32x1024_o5_0_S1x1024 : S32x1024.Slices ![5, 0] S1x1024
  slices_S128x32_o0_5_S128x1 : S128x32.Slices ![0, 5] S128x1
  slices_S32x1024_o6_0_S1x1024 : S32x1024.Slices ![6, 0] S1x1024
  slices_S128x32_o0_6_S128x1 : S128x32.Slices ![0, 6] S128x1
  slices_S32x1024_o7_0_S1x1024 : S32x1024.Slices ![7, 0] S1x1024
  slices_S128x32_o0_7_S128x1 : S128x32.Slices ![0, 7] S128x1
  slices_S32x1024_o8_0_S1x1024 : S32x1024.Slices ![8, 0] S1x1024
  slices_S128x32_o0_8_S128x1 : S128x32.Slices ![0, 8] S128x1
  slices_S32x1024_o9_0_S1x1024 : S32x1024.Slices ![9, 0] S1x1024
  slices_S128x32_o0_9_S128x1 : S128x32.Slices ![0, 9] S128x1
  slices_S32x1024_o10_0_S1x1024 : S32x1024.Slices ![10, 0] S1x1024
  slices_S128x32_o0_10_S128x1 : S128x32.Slices ![0, 10] S128x1
  slices_S32x1024_o11_0_S1x1024 : S32x1024.Slices ![11, 0] S1x1024
  slices_S128x32_o0_11_S128x1 : S128x32.Slices ![0, 11] S128x1
  slices_S32x1024_o12_0_S1x1024 : S32x1024.Slices ![12, 0] S1x1024
  slices_S128x32_o0_12_S128x1 : S128x32.Slices ![0, 12] S128x1
  slices_S32x1024_o13_0_S1x1024 : S32x1024.Slices ![13, 0] S1x1024
  slices_S128x32_o0_13_S128x1 : S128x32.Slices ![0, 13] S128x1
  slices_S32x1024_o14_0_S1x1024 : S32x1024.Slices ![14, 0] S1x1024
  slices_S128x32_o0_14_S128x1 : S128x32.Slices ![0, 14] S128x1
  slices_S32x1024_o15_0_S1x1024 : S32x1024.Slices ![15, 0] S1x1024
  slices_S128x32_o0_15_S128x1 : S128x32.Slices ![0, 15] S128x1
  slices_S32x1024_o16_0_S1x1024 : S32x1024.Slices ![16, 0] S1x1024
  slices_S128x32_o0_16_S128x1 : S128x32.Slices ![0, 16] S128x1
  slices_S32x1024_o17_0_S1x1024 : S32x1024.Slices ![17, 0] S1x1024
  slices_S128x32_o0_17_S128x1 : S128x32.Slices ![0, 17] S128x1
  slices_S32x1024_o18_0_S1x1024 : S32x1024.Slices ![18, 0] S1x1024
  slices_S128x32_o0_18_S128x1 : S128x32.Slices ![0, 18] S128x1
  slices_S32x1024_o19_0_S1x1024 : S32x1024.Slices ![19, 0] S1x1024
  slices_S128x32_o0_19_S128x1 : S128x32.Slices ![0, 19] S128x1
  slices_S32x1024_o20_0_S1x1024 : S32x1024.Slices ![20, 0] S1x1024
  slices_S128x32_o0_20_S128x1 : S128x32.Slices ![0, 20] S128x1
  slices_S32x1024_o21_0_S1x1024 : S32x1024.Slices ![21, 0] S1x1024
  slices_S128x32_o0_21_S128x1 : S128x32.Slices ![0, 21] S128x1
  slices_S32x1024_o22_0_S1x1024 : S32x1024.Slices ![22, 0] S1x1024
  slices_S128x32_o0_22_S128x1 : S128x32.Slices ![0, 22] S128x1
  slices_S32x1024_o23_0_S1x1024 : S32x1024.Slices ![23, 0] S1x1024
  slices_S128x32_o0_23_S128x1 : S128x32.Slices ![0, 23] S128x1
  slices_S32x1024_o24_0_S1x1024 : S32x1024.Slices ![24, 0] S1x1024
  slices_S128x32_o0_24_S128x1 : S128x32.Slices ![0, 24] S128x1
  slices_S32x1024_o25_0_S1x1024 : S32x1024.Slices ![25, 0] S1x1024
  slices_S128x32_o0_25_S128x1 : S128x32.Slices ![0, 25] S128x1
  slices_S32x1024_o26_0_S1x1024 : S32x1024.Slices ![26, 0] S1x1024
  slices_S128x32_o0_26_S128x1 : S128x32.Slices ![0, 26] S128x1
  slices_S32x1024_o27_0_S1x1024 : S32x1024.Slices ![27, 0] S1x1024
  slices_S128x32_o0_27_S128x1 : S128x32.Slices ![0, 27] S128x1
  slices_S32x1024_o28_0_S1x1024 : S32x1024.Slices ![28, 0] S1x1024
  slices_S128x32_o0_28_S128x1 : S128x32.Slices ![0, 28] S128x1
  slices_S32x1024_o29_0_S1x1024 : S32x1024.Slices ![29, 0] S1x1024
  slices_S128x32_o0_29_S128x1 : S128x32.Slices ![0, 29] S128x1
  slices_S32x1024_o30_0_S1x1024 : S32x1024.Slices ![30, 0] S1x1024
  slices_S128x32_o0_30_S128x1 : S128x32.Slices ![0, 30] S128x1
  slices_S32x1024_o31_0_S1x1024 : S32x1024.Slices ![31, 0] S1x1024
  slices_S128x32_o0_31_S128x1 : S128x32.Slices ![0, 31] S128x1
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  dot_S32x32_S1024x32_S32x1024_1_1_0_0_n_n_wf : DotDims.WF S32x32 S1024x32 S32x1024 [1] [1] [0] [0] [] []
  dot_S128x32_S32x32_S128x32_1_0_0_1_n_n_wf : DotDims.WF S128x32 S32x32 S128x32 [1] [0] [0] [1] [] []
  dot_S128x1024_S1024x64_S128x64_1_0_0_1_n_n_wf : DotDims.WF S128x1024 S1024x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x32.size a ≤ S4x1024x32.size a
  hwx0_0 : ∀ i : grid0.Coords, EltTy.bits .f32 = 32 ∨ (Rect.block (s := S4x1024x32) S1x1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x32.size a ≤ S4x1024x32.size a
  hwx0_1 : ∀ i : grid0.Coords, EltTy.bits .f32 = 32 ∨ (Rect.block (s := S4x1024x32) S1x128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x1024x64.size a
  hwx0_2 : ∀ i : grid0.Coords, EltTy.bits .f32 = 32 ∨ (Rect.block (s := S4x1024x64) S1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x64.size a ≤ S4x1024x64.size a
  hwx0_5 : ∀ i : grid0.Coords, EltTy.bits .f32 = 32 ∨ (Rect.block (s := S4x1024x64) S1x128x64.size (cc0_transform_5 i) (hinb0_5 i)).WholeWords (EltTy.packing .f32)

variable [Facts₀]

def dot_S32x32_S1024x32_S32x1024_1_1_0_0_n_n : DotDims S32x32 S1024x32 S32x1024 where
  lhsContracting := [1]
  rhsContracting := [1]
  lhsNonContracting := [0]
  rhsNonContracting := [0]
  lhsBatch := []
  rhsBatch := []
  wf := dot_S32x32_S1024x32_S32x1024_1_1_0_0_n_n_wf
def dot_S128x32_S32x32_S128x32_1_0_0_1_n_n : DotDims S128x32 S32x32 S128x32 where
  lhsContracting := [1]
  rhsContracting := [0]
  lhsNonContracting := [0]
  rhsNonContracting := [1]
  lhsBatch := []
  rhsBatch := []
  wf := dot_S128x32_S32x32_S128x32_1_0_0_1_n_n_wf
def dot_S128x1024_S1024x64_S128x64_1_0_0_1_n_n : DotDims S128x1024 S1024x64 S128x64 where
  lhsContracting := [1]
  rhsContracting := [0]
  lhsNonContracting := [0]
  rhsNonContracting := [1]
  lhsBatch := []
  rhsBatch := []
  wf := dot_S128x1024_S1024x64_S128x64_1_0_0_1_n_n_wf

abbrev win0_0 : Pipeline.Window sig grid0 :=
  Pipeline.Window.ofSpec (Memref.whole main_arg0) S1x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x1024x32 : Shape := ⟨3, ![4, 1024, 32]⟩
abbrev S4x1024x64 : Shape := ⟨3, ![4, 1024, 64]⟩
abbrev S32x32 : Shape := ⟨2, ![32, 32]⟩
abbrev S32 : Shape := ⟨1, ![32]⟩
abbrev S1x1x32 : Shape := ⟨3, ![1, 1, 32]⟩
abbrev S4x1x1024x32 : Shape := ⟨4, ![4, 1, 1024, 32]⟩
abbrev S4x1024x1x32 : Shape := ⟨4, ![4, 1024, 1, 32]⟩
abbrev S4x1024x1024x32 : Shape := ⟨4, ![4, 1024, 1024, 32]⟩
abbrev S_ : Shape := ⟨0, ![]⟩
abbrev S4x1024x1024 : Shape := ⟨3, ![4, 1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x1024x32, .f32⟩
  | .hbm, ⟨1, _⟩ => ⟨S4x1024x32, .f32⟩
  | .hbm, ⟨2, _⟩ => ⟨S4x1024x64, .f32⟩
  | .hbm, ⟨3, _⟩ => ⟨S32x32, .f32⟩
  | .hbm, ⟨4, _⟩ => ⟨S32, .f32⟩
  | .hbm, ⟨5, _⟩ => ⟨S4x1024x32, .f32⟩
  | .hbm, ⟨6, _⟩ => ⟨S1x1x32, .f32⟩
  | .hbm, ⟨7, _⟩ => ⟨S4x1024x32, .f32⟩
  | .hbm, ⟨8, _⟩ => ⟨S4x1024x32, .f32⟩
  | .hbm, ⟨9, _⟩ => ⟨S4x1024x32, .f32⟩
  | .hbm, ⟨10, _⟩ => ⟨S1x1x32, .f32⟩
  | .hbm, ⟨11, _⟩ => ⟨S4x1024x32, .f32⟩
  | .hbm, ⟨12, _⟩ => ⟨S4x1024x32, .f32⟩
  | .hbm, ⟨13, _⟩ => ⟨S4x1x1024x32, .f32⟩
  | .hbm, ⟨14, _⟩ => ⟨S4x1024x1x32, .f32⟩
  | .hbm, ⟨15, _⟩ => ⟨S4x1024x1024x32, .f32⟩
  | .hbm, ⟨16, _⟩ => ⟨S4x1024x1024x32, .f32⟩
  | .hbm, ⟨17, _⟩ => ⟨S4x1024x1024x32, .f32⟩
  | .hbm, ⟨18, _⟩ => ⟨S_, .f32⟩
  | .hbm, ⟨19, _⟩ => ⟨S4x1024x1024x32, .f32⟩
  | .hbm, ⟨20, _⟩ => ⟨S4x1024x1024x32, .f32⟩
  | .hbm, ⟨21, _⟩ => ⟨S4x1024x1024x32, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x64, .f32⟩
  | _, _ => ⟨S4x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S4x1024x32_0_1_2 : S1x1x32.BroadcastsInDim S4x1024x32 (![0, 1, 2] : Fin 3 → Fin S4x1024x32.rank)
  bcast_S4x1024x32_S4x1x1024x32_0_2_3 : S4x1024x32.BroadcastsInDim S4x1x1024x32 (![0, 2, 3] : Fin 3 → Fin S4x1x1024x32.rank)
  bcast_S4x1024x32_S4x1024x1x32_0_1_3 : S4x1024x32.BroadcastsInDim S4x1024x1x32 (![0, 1, 3] : Fin 3 → Fin S4x1024x1x32.rank)
  bcast_S4x1x1024x32_S4x1024x1024x32_0_1_2_3 : S4x1x1024x32.BroadcastsInDim S4x1024x1024x32 (![0, 1, 2, 3] : Fin 4 → Fin S4x1024x1024x32.rank)
  bcast_S4x1024x1x32_S4x1024x1024x32_0_1_2_3 : S4x1024x1x32.BroadcastsInDim S4x1024x1024x32 (![0, 1, 2, 3] : Fin 4 → Fin S4x1024x1024x32.rank)
  bcast_S_S4x1024x1024x32 : S_.BroadcastsInDim S4x1024x1024x32 (![] : Fin 0 → Fin S4x1024x1024x32.rank)
  reducesTo_S4x1024x1024x32_S4x1024x1024_d3 : S4x1024x1024x32.ReducesTo [3] S4x1024x1024
  h_S_ : 0 < S_.numel
  bcast_S_S4x1024x1024 : S_.BroadcastsInDim S4x1024x1024 (![] : Fin 0 → Fin S4x1024x1024.rank)
  dot_S4x1024x32_S32x32_S4x1024x32_2_1_01_0_n_n_wf : DotDims.WF S4x1024x32 S32x32 S4x1024x32 [2] [1] [0, 1] [0] [] []
  dot_S4x1024x1024_S4x1024x64_S4x1024x64_2_1_1_2_0_0_wf : DotDims.WF S4x1024x1024 S4x1024x64 S4x1024x64 [2] [1] [1] [2] [0] [0]

variable [Facts₀]

def dot_S4x1024x32_S32x32_S4x1024x32_2_1_01_0_n_n : DotDims S4x1024x32 S32x32 S4x1024x32 where
  lhsContracting := [2]
  rhsContracting := [1]
  lhsNonContracting := [0, 1]
  rhsNonContracting := [0]
  lhsBatch := []
  rhsBatch := []
  wf := dot_S4x1024x32_S32x32_S4x1024x32_2_1_01_0_n_n_wf
def dot_S4x1024x1024_S4x1024x64_S4x1024x64_2_1_1_2_0_0 : DotDims S4x1024x1024 S4x1024x64 S4x1024x64 where
  lhsContracting := [2]
  rhsContracting := [1]
  lhsNonContracting := [1]
  rhsNonContracting := [2]
  lhsBatch := [0]
  rhsBatch := [0]
  wf := dot_S4x1024x1024_S4x1024x64_S4x1024x64_2_1_1_2_0_0_wf

class Facts : Prop extends Facts₀ where

variable [Facts]
-- ==== Proof.Spec.lean ====
/-
  Laplace (L1-distance) attention, as one function of the argument arrays.

  Inputs: contexts x1[b, n, ·] and targets x2[b, m, ·] (both 4 × 1024 × 32), values r[b, n, ·] (4 × 1024 × 64), one
  shared linear map W (32 × 32) with bias β (32). With k[b,n,h] = Σ_d x1[b,n,d]·W[h,d] and q[b,m,h] = Σ_d x2[b,m,d]·W[h,d],

      out[b, m, v] = Σ_n (1 + tanh(−Σ_h |k[b,n,h] − q[b,m,h]|)) · r[b, n, v].

  One program adds β to both projections before subtracting and divides the difference by 1; the other leaves both out.
  On the extended reals (k + β) − (q + β) = k − q needs k, q and β to be real numbers, which is where finiteness of the
  inputs is used; x / 1 = x holds everywhere.

  The function is stated through "core", which sees the arrays only through four accessors (a row of x1 per n, the
  one row of x2, a column of r, the entries of W): a block of an array and the array itself then give the same value as
  soon as their accessors agree.
-/
import Idealize.ShloMosaic.PureOps.Ideal
import Idealize.ShloMosaic.PureOps.Ideal.Laws
import Idealize.ShloMosaic.Lib.ValueIdx

noncomputable section

namespace Cert.Laplace

open Idealize.ShloMosaic Idealize.ShloMosaic.ValueIdx

abbrev SX : Shape := ⟨3, ![4, 1024, 32]⟩
abbrev SR : Shape := ⟨3, ![4, 1024, 64]⟩
abbrev SW : Shape := ⟨2, ![32, 32]⟩
abbrev SB : Shape := ⟨1, ![32]⟩

/-- Every entry of the array is a real number (neither infinity). -/
def Finite {s : Shape} (x : s.Idx → EReal) : Prop := ∀ i, x i ≠ ⊤ ∧ x i ≠ ⊥

/-- The absolute value on the extended reals. -/
def absE (a : EReal) : EReal := max a (-a)

/-- The literal 1.0. -/
abbrev one32 : EReal := Ideal.ofBits .f32 0x3F800000#32

/-! ## The function through accessors -/

/-- A projection: Σ_d x[d] · W[h, d]. -/
def cproj (fW : Fin 32 → Fin 32 → EReal) (fx : Fin 32 → EReal) (h : Fin 32) : EReal :=
  ∑ d : Fin 32, fx d * fW h d

/-- The L1 distance between the projections of two rows. -/
def cdist (fW : Fin 32 → Fin 32 → EReal) (fk fq : Fin 32 → EReal) : EReal :=
  ∑ h : Fin 32, absE (cproj fW fk h - cproj fW fq h)

/-- The attention weight of context row fk for target row fq: 1 + tanh(−distance). -/
def cwgt (fW : Fin 32 → Fin 32 → EReal) (fk fq : Fin 32 → EReal) : EReal :=
  one32 + Ideal.tanh (-(cdist fW fk fq))

/-- One output entry: the weights of all 1024 context rows against one target row, times one column of r. -/
def core (fW : Fin 32 → Fin 32 → EReal) (fx1 : Fin 1024 → Fin 32 → EReal) (fx2 : Fin 32 → EReal) (fr : Fin 1024 → EReal) : EReal :=
  ∑ n : Fin 1024, cwgt fW (fx1 n) fx2 * fr n

/-- The result at (b, m, v), from the whole arrays. -/
def Gat (W : SW.Idx → EReal) (x1 x2 : SX.Idx → EReal) (r : SR.Idx → EReal) (b : Fin 4) (m : Fin 1024) (v : Fin 64) : EReal :=
  core (fun h d => W (ix2 h d)) (fun n d => x1 (ix3 b n d)) (fun d => x2 (ix3 b m d)) (fun n => r (ix3 b n v))

/-- The result array. -/
def G (W : SW.Idx → EReal) (x1 x2 : SX.Idx → EReal) (r : SR.Idx → EReal) : SR.Idx → EReal :=
  fun i => Gat W x1 x2 r (i 0) (i 1) (i 2)

theorem G_ix3 (W : SW.Idx → EReal) (x1 x2 : SX.Idx → EReal) (r : SR.Idx → EReal) (b : Fin 4) (m : Fin 1024) (v : Fin 64) :
    G W x1 x2 r (ix3 b m v) = Gat W x1 x2 r b m v := rfl

/-! ## The spelling with the bias and the division by one -/

/-- The distance as the program with the bias computes it: both projections shifted by β, the difference divided by
    1.0, the sum started from the literal 0.0. -/
def cdistB (fW : Fin 32 → Fin 32 → EReal) (fβ : Fin 32 → EReal) (fk fq : Fin 32 → EReal) : EReal :=
  Ideal.ofBits .f32 0x00000000#32 + ∑ h : Fin 32, absE (Ideal.div ((cproj fW fk h + fβ h) - (cproj fW fq h + fβ h)) one32)

def coreB (fW : Fin 32 → Fin 32 → EReal) (fβ : Fin 32 → EReal) (fx1 : Fin 1024 → Fin 32 → EReal) (fx2 : Fin 32 → EReal) (fr : Fin 1024 → EReal) : EReal :=
  ∑ n : Fin 1024, (one32 + Ideal.tanh (-(cdistB fW fβ (fx1 n) fx2))) * fr n

def GatB (W : SW.Idx → EReal) (β : SB.Idx → EReal) (x1 x2 : SX.Idx → EReal) (r : SR.Idx → EReal) (b : Fin 4) (m : Fin 1024) (v : Fin 64) : EReal :=
  coreB (fun h d => W (ix2 h d)) (fun h => β (ix1 h)) (fun n d => x1 (ix3 b n d)) (fun d => x2 (ix3 b m d)) (fun n => r (ix3 b n v))

def GB (W : SW.Idx → EReal) (β : SB.Idx → EReal) (x1 x2 : SX.Idx → EReal) (r : SR.Idx → EReal) : SR.Idx → EReal :=
  fun i => GatB W β x1 x2 r (i 0) (i 1) (i 2)

theorem GB_ix3 (W : SW.Idx → EReal) (β : SB.Idx → EReal) (x1 x2 : SX.Idx → EReal) (r : SR.Idx → EReal) (b : Fin 4) (m : Fin 1024) (v : Fin 64) :
    GB W β x1 x2 r (ix3 b m v) = GatB W β x1 x2 r b m v := rfl

/-! ## The algebra -/

/-- The pattern of 1.0 denotes 1. -/
theorem one32_eq : one32 = 1 := by
  simp [one32, Ideal.ofBits, Ideal.ieee, -EReal.coe_mul]; norm_num

/-- Dividing by 1.0 changes nothing, at the infinities either. -/
theorem div_one32 (x : EReal) : Ideal.div x one32 = x := by
  rw [one32_eq, ← EReal.coe_one, Ideal.div_coe one_ne_zero]
  simp

/-- A finite sum of reals, taken in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A projection of real rows through a real map is a real number. -/
theorem cproj_real {fW : Fin 32 → Fin 32 → EReal} {fx : Fin 32 → EReal}
    (hW : ∀ h d, fW h d ≠ ⊤ ∧ fW h d ≠ ⊥) (hx : ∀ d, fx d ≠ ⊤ ∧ fx d ≠ ⊥) (h : Fin 32) :
    ∃ ρ : ℝ, cproj fW fx h = (ρ : EReal) := by
  unfold cproj
  have e : ∀ d : Fin 32, fx d * fW h d = (((fx d).toReal * (fW h d).toReal : ℝ) : EReal) := fun d => by
    rw [EReal.coe_mul, EReal.coe_toReal (hx d).1 (hx d).2, EReal.coe_toReal (hW h d).1 (hW h d).2]
  exact ⟨_, by rw [Finset.sum_congr rfl (fun d _ => e d), coe_sum]⟩

/-- A common real shift cancels in a difference of reals. -/
theorem cancel_real (a b c : ℝ) : ((a : EReal) + c) - ((b : EReal) + c) = (a : EReal) - b := by
  rw [← EReal.coe_add, ← EReal.coe_add, ← EReal.coe_sub, ← EReal.coe_sub]
  congr 1
  ring

/-- With real inputs the biased, divided distance is the plain one. -/
theorem cdistB_eq {fW : Fin 32 → Fin 32 → EReal} {fβ fk fq : Fin 32 → EReal}
    (hW : ∀ h d, fW h d ≠ ⊤ ∧ fW h d ≠ ⊥) (hβ : ∀ h, fβ h ≠ ⊤ ∧ fβ h ≠ ⊥)
    (hk : ∀ d, fk d ≠ ⊤ ∧ fk d ≠ ⊥) (hq : ∀ d, fq d ≠ ⊤ ∧ fq d ≠ ⊥) :
    cdistB fW fβ fk fq = cdist fW fk fq := by
  unfold cdistB cdist
  rw [Ideal.ofBits_zero_f32, zero_add]
  refine Finset.sum_congr rfl fun h _ => ?_
  rw [div_one32]
  obtain ⟨ρk, ek⟩ := cproj_real hW hk h
  obtain ⟨ρq, eq⟩ := cproj_real hW hq h
  rw [ek, eq, ← EReal.coe_toReal (hβ h).1 (hβ h).2, cancel_real]

/-- With real x1, x2, W and β the two spellings of the result agree (r may be anything). -/
theorem GB_eq_G {W : SW.Idx → EReal} {β : SB.Idx → EReal} {x1 x2 : SX.Idx → EReal} (r : SR.Idx → EReal)
    (hW : Finite W) (hβ : Finite β) (h1 : Finite x1) (h2 : Finite x2) : GB W β x1 x2 r = G W x1 x2 r := by
  funext i
  unfold GB G GatB Gat coreB core cwgt
  refine Finset.sum_congr rfl fun n _ => ?_
  rw [cdistB_eq (fun h d => hW _) (fun h => hβ _) (fun d => h1 _) (fun d => h2 _)]

end Cert.Laplace

end
-- ==== Proof.LibColumnMatmul.lean ====
/-
  Two reads at an index given by coordinates.

  * A column [a, 1] broadcast along its unit axis to [a, b]: entry (p, c) of the result is entry (p, 0) of the column.
  * A matrix product into a zero accumulator whose dimension numbers contract ONE axis of extent n: entry j of the
    result is Σ_{k < n} lhs(L k) · rhs(R k), where L k and R k are the operand indices the dimension numbers assign to
    output index j and contraction coordinate k (the caller names them and shows that they are).
-/
import Idealize.ShloMosaic.Lib.ValueLayout
import Idealize.ShloMosaic.Lib.ValueIdx
import Idealize.ShloMosaic.PureOps.Ideal.Laws

noncomputable section

namespace Cert.LibColumnMatmul

open Idealize.ShloMosaic Idealize.ShloMosaic.ValueIdx

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product into the zero accumulator, one contracted axis of extent `n`: the sum over that axis of the operands'
    entries at the indices `L k`, `R k` the dimension numbers give. -/
theorem matmul_zero_single {sl sr so : Shape} {φ₁ φ₂ : FTy} (D : DotDims sl sr so) (prec : Option ContractPrecision) (n : ℕ)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hL : ∀ k : Fin n, D.lhsIdx j ((contrEquiv1 D n hr hs).symm k) = L k)
    (hR : ∀ k : Fin n, D.rhsIdx j ((contrEquiv1 D n hr hs).symm k) = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  exact Finset.sum_congr rfl fun k _ => by rw [hL k, hR k]

end Cert.LibColumnMatmul

end
-- ==== Proof.KernelPayload.lean ====
/-
  What the kernel body stores, at one entry of its output block.

  At a grid point the body holds a block of contexts x1 (1024 rows of 32), a block of targets x2 (128 rows of 32), a
  block of values r (1024 rows of 64) and the map W (32 × 32). It forms the keys transposed, K[h, n] = Σ_d W[h, d]·x1[n, d],
  and the queries Q[p, h] = Σ_d x2[p, d]·W[h, d] (the second product takes W transposed), then adds up, one h at a time
  for h = 0 … 31, the absolute value of (row h of K spread down the 128 rows) − (column h of Q spread along the 1024
  columns); at (p, n) that total is Σ_h |K[h, n] − Q[p, h]|. The weights are 1 + tanh(0 − total), and the stored block is
  their product with r: entry (p, v) is Σ_n w[p, n]·r[n, v]. Changes of float format are the identity on the extended
  reals, a product into the zero accumulator is the plain sum, 0 − t = −t, and the 32 unrolled additions starting from
  0 are the sum over h. So the entry is Spec.lean's "core" of the four accessors of the blocks.

  The order of the factors in K is W·x1 where "core" has x1·W: multiplication commutes.
-/
import proofs.«104317_j13572096656114_2_alg».proof.Proof.Gen.KernelIdeal.Frame
import proofs.«104317_j13572096656114_2_alg».proof.Proof.Spec
import proofs.«104317_j13572096656114_2_alg».proof.Proof.LibColumnMatmul
import Idealize.ShloMosaic.Lib.Pipeline.Value
import Idealize.ShloMosaic.Lib.ValueLayout
import Idealize.ShloMosaic.Lib.ValueIdx
import Idealize.ShloMosaic.PureOps.Ideal.Laws

noncomputable section

namespace Cert.Laplace.KernelPayload

open Cert.KernelIdeal Cert.KernelIdeal.Gen Idealize.ShloMosaic Idealize.ShloMosaic.ValueIdx Cert.LibColumnMatmul

/-! ## The operand indices of the three products

For each product, which entry of each operand meets output entry `i` at contraction coordinate `q`, axis by axis: a
kept axis carries the output's coordinate, the contracted axis carries `q`. -/

theorem keys_lhs0 (i : S32x1024.Idx) (q : dot_S32x32_S1024x32_S32x1024_1_1_0_0_n_n.contr.Idx) :
    (dot_S32x32_S1024x32_S32x1024_1_1_0_0_n_n.lhsIdx i q 0).val = (i 0).val := by
  unfold DotDims.lhsIdx
  rw [dif_neg (show ¬(0 : Fin S32x32.rank) ∈ dot_S32x32_S1024x32_S32x1024_1_1_0_0_n_n.lhsBatch by decide),
    dif_pos (show (0 : Fin S32x32.rank) ∈ dot_S32x32_S1024x32_S32x1024_1_1_0_0_n_n.lhsNonContracting by decide)]
  rfl
theorem keys_lhs1 (i : S32x1024.Idx) (q : dot_S32x32_S1024x32_S32x1024_1_1_0_0_n_n.contr.Idx) :
    (dot_S32x32_S1024x32_S32x1024_1_1_0_0_n_n.lhsIdx i q 1).val = (q ⟨0, by decide⟩).val :=
  dot_S32x32_S1024x32_S32x1024_1_1_0_0_n_n.lhsIdx_val_of_single rfl i q
theorem keys_rhs0 (i : S32x1024.Idx) (q : dot_S32x32_S1024x32_S32x1024_1_1_0_0_n_n.contr.Idx) :
    (dot_S32x32_S1024x32_S32x1024_1_1_0_0_n_n.rhsIdx i q 0).val = (i 1).val := by
  unfold DotDims.rhsIdx
  rw [dif_neg (show ¬(0 : Fin S1024x32.rank) ∈ dot_S32x32_S1024x32_S32x1024_1_1_0_0_n_n.rhsBatch by decide),
    dif_pos (show (0 : Fin S1024x32.rank) ∈ dot_S32x32_S1024x32_S32x1024_1_1_0_0_n_n.rhsNonContracting by decide)]
  rfl
theorem keys_rhs1 (i : S32x1024.Idx) (q : dot_S32x32_S1024x32_S32x1024_1_1_0_0_n_n.contr.Idx) :
    (dot_S32x32_S1024x32_S32x1024_1_1_0_0_n_n.rhsIdx i q 1).val = (q ⟨0, by decide⟩).val :=
  dot_S32x32_S1024x32_S32x1024_1_1_0_0_n_n.rhsIdx_val_of_single rfl i q
theorem queries_lhs0 (i : S128x32.Idx) (q : dot_S128x32_S32x32_S128x32_1_0_0_1_n_n.contr.Idx) :
    (dot_S128x32_S32x32_S128x32_1_0_0_1_n_n.lhsIdx i q 0).val = (i 0).val := by
  unfold DotDims.lhsIdx
  rw [dif_neg (show ¬(0 : Fin S128x32.rank) ∈ dot_S128x32_S32x32_S128x32_1_0_0_1_n_n.lhsBatch by decide),
    dif_pos (show (0 : Fin S128x32.rank) ∈ dot_S128x32_S32x32_S128x32_1_0_0_1_n_n.lhsNonContracting by decide)]
  rfl
theorem queries_lhs1 (i : S128x32.Idx) (q : dot_S128x32_S32x32_S128x32_1_0_0_1_n_n.contr.Idx) :
    (dot_S128x32_S32x32_S128x32_1_0_0_1_n_n.lhsIdx i q 1).val = (q ⟨0, by decide⟩).val :=
  dot_S128x32_S32x32_S128x32_1_0_0_1_n_n.lhsIdx_val_of_single rfl i q
theorem queries_rhs0 (i : S128x32.Idx) (q : dot_S128x32_S32x32_S128x32_1_0_0_1_n_n.contr.Idx) :
    (dot_S128x32_S32x32_S128x32_1_0_0_1_n_n.rhsIdx i q 0).val = (q ⟨0, by decide⟩).val :=
  dot_S128x32_S32x32_S128x32_1_0_0_1_n_n.rhsIdx_val_of_single rfl i q
theorem queries_rhs1 (i : S128x32.Idx) (q : dot_S128x32_S32x32_S128x32_1_0_0_1_n_n.contr.Idx) :
    (dot_S128x32_S32x32_S128x32_1_0_0_1_n_n.rhsIdx i q 1).val = (i 1).val := by
  unfold DotDims.rhsIdx
  rw [dif_neg (show ¬(1 : Fin S32x32.rank) ∈ dot_S128x32_S32x32_S128x32_1_0_0_1_n_n.rhsBatch by decide),
    dif_pos (show (1 : Fin S32x32.rank) ∈ dot_S128x32_S32x32_S128x32_1_0_0_1_n_n.rhsNonContracting by decide)]
  rfl
theorem out_lhs0 (i : S128x64.Idx) (q : dot_S128x1024_S1024x64_S128x64_1_0_0_1_n_n.contr.Idx) :
    (dot_S128x1024_S1024x64_S128x64_1_0_0_1_n_n.lhsIdx i q 0).val = (i 0).val := by
  unfold DotDims.lhsIdx
  rw [dif_neg (show ¬(0 : Fin S128x1024.rank) ∈ dot_S128x1024_S1024x64_S128x64_1_0_0_1_n_n.lhsBatch by decide),
    dif_pos (show (0 : Fin S128x1024.rank) ∈ dot_S128x1024_S1024x64_S128x64_1_0_0_1_n_n.lhsNonContracting by decide)]
  rfl
theorem out_lhs1 (i : S128x64.Idx) (q : dot_S128x1024_S1024x64_S128x64_1_0_0_1_n_n.contr.Idx) :
    (dot_S128x1024_S1024x64_S128x64_1_0_0_1_n_n.lhsIdx i q 1).val = (q ⟨0, by decide⟩).val :=
  dot_S128x1024_S1024x64_S128x64_1_0_0_1_n_n.lhsIdx_val_of_single rfl i q
theorem out_rhs0 (i : S128x64.Idx) (q : dot_S128x1024_S1024x64_S128x64_1_0_0_1_n_n.contr.Idx) :
    (dot_S128x1024_S1024x64_S128x64_1_0_0_1_n_n.rhsIdx i q 0).val = (q ⟨0, by decide⟩).val :=
  dot_S128x1024_S1024x64_S128x64_1_0_0_1_n_n.rhsIdx_val_of_single rfl i q
theorem out_rhs1 (i : S128x64.Idx) (q : dot_S128x1024_S1024x64_S128x64_1_0_0_1_n_n.contr.Idx) :
    (dot_S128x1024_S1024x64_S128x64_1_0_0_1_n_n.rhsIdx i q 1).val = (i 1).val := by
  unfold DotDims.rhsIdx
  rw [dif_neg (show ¬(1 : Fin S1024x64.rank) ∈ dot_S128x1024_S1024x64_S128x64_1_0_0_1_n_n.rhsBatch by decide),
    dif_pos (show (1 : Fin S1024x64.rank) ∈ dot_S128x1024_S1024x64_S128x64_1_0_0_1_n_n.rhsNonContracting by decide)]
  rfl

/-! ## The three products at an index -/

/-- The keys, transposed: entry (h, n) of the first product is Σ_d W[h, d] · x1[n, d]. -/
theorem keys_apply (x0 : Vec Ideal S1x1024x32 .f32) (x3 : Vec Ideal S32x32 .f32) (h : Fin 32) (n : Fin 1024) :
    k0_pay4 (F := Ideal) x0 x3 (ix2 h n) = ∑ d : Fin 32, x3 (ix2 h d) * x0 (ix3 (0 : Fin 1) n d) := by
  unfold k0_pay4 k0_pay3
  refine (matmul_zero_single dot_S32x32_S1024x32_S32x1024_1_1_0_0_n_n none 32 rfl rfl _ _ (ix2 h n)
    (fun d => ix2 h d) (fun d => ix2 n d) ?_ ?_).trans ?_
  · intro k
    have hk := contrEquiv1_symm_val dot_S32x32_S1024x32_S32x1024_1_1_0_0_n_n 32 rfl rfl k
    funext a; apply Fin.ext
    match a with
    | ⟨0, _⟩ => exact keys_lhs0 _ _
    | ⟨1, _⟩ => exact (keys_lhs1 _ _).trans hk
  · intro k
    have hk := contrEquiv1_symm_val dot_S32x32_S1024x32_S32x1024_1_1_0_0_n_n 32 rfl rfl k
    funext a; apply Fin.ext
    match a with
    | ⟨0, _⟩ => exact keys_rhs0 _ _
    | ⟨1, _⟩ => exact (keys_rhs1 _ _).trans hk
  · refine Finset.sum_congr rfl fun d _ => ?_
    show x3 (ix2 h d) * shapeCast S1024x32 x0 shapeCasts_S1x1024x32_S1024x32 (ix2 n d) = _
    rw [shapeCast_1ab_ab_apply]

/-- The queries: entry (p, h) of the second product is Σ_d x2[p, d] · W[h, d] (the right operand is W transposed). -/
theorem queries_apply (x1 : Vec Ideal S1x128x32 .f32) (x3 : Vec Ideal S32x32 .f32) (p : Fin 128) (h : Fin 32) :
    k0_pay5 (F := Ideal) x1 x3 (ix2 p h) = ∑ d : Fin 32, x1 (ix3 (0 : Fin 1) p d) * x3 (ix2 h d) := by
  unfold k0_pay5 k0_pay3
  refine (matmul_zero_single dot_S128x32_S32x32_S128x32_1_0_0_1_n_n none 32 rfl rfl _ _ (ix2 p h)
    (fun d => ix2 p d) (fun d => ix2 d h) ?_ ?_).trans ?_
  · intro k
    have hk := contrEquiv1_symm_val dot_S128x32_S32x32_S128x32_1_0_0_1_n_n 32 rfl rfl k
    funext a; apply Fin.ext
    match a with
    | ⟨0, _⟩ => exact queries_lhs0 _ _
    | ⟨1, _⟩ => exact (queries_lhs1 _ _).trans hk
  · intro k
    have hk := contrEquiv1_symm_val dot_S128x32_S32x32_S128x32_1_0_0_1_n_n 32 rfl rfl k
    funext a; apply Fin.ext
    match a with
    | ⟨0, _⟩ => exact (queries_rhs0 _ _).trans hk
    | ⟨1, _⟩ => exact queries_rhs1 _ _
  · refine Finset.sum_congr rfl fun d _ => ?_
    simp only [truncf_apply, shapeCast_1ab_ab_apply]
    refine congrArg (x1 (ix3 (0 : Fin 1) p d) * ·) ?_
    exact transpose_ix2_apply (a := 32) (b := 32) _ transposes_S32x32_p1_0_S32x32 d h

/-- The last product: entry (p, v) is Σ_n w[p, n] · r[n, v]. -/
theorem weighted_apply (w : FVec Ideal S128x1024 .bf16) (rr : FVec Ideal S1024x64 .bf16) (p : Fin 128) (v : Fin 64) :
    matmul dot_S128x1024_S1024x64_S128x64_1_0_0_1_n_n none w rr (constant S128x64 .f32 0x00000000#32) (ix2 p v)
      = ∑ n : Fin 1024, w (ix2 p n) * rr (ix2 n v) := by
  refine (matmul_zero_single dot_S128x1024_S1024x64_S128x64_1_0_0_1_n_n none 1024 rfl rfl _ _ (ix2 p v)
    (fun n => ix2 p n) (fun n => ix2 n v) ?_ ?_)
  · intro k
    have hk := contrEquiv1_symm_val dot_S128x1024_S1024x64_S128x64_1_0_0_1_n_n 1024 rfl rfl k
    funext a; apply Fin.ext
    match a with
    | ⟨0, _⟩ => exact out_lhs0 _ _
    | ⟨1, _⟩ => exact (out_lhs1 _ _).trans hk
  · intro k
    have hk := contrEquiv1_symm_val dot_S128x1024_S1024x64_S128x64_1_0_0_1_n_n 1024 rfl rfl k
    funext a; apply Fin.ext
    match a with
    | ⟨0, _⟩ => exact (out_rhs0 _ _).trans hk
    | ⟨1, _⟩ => exact out_rhs1 _ _

/-! ## One term of the distance -/

/-- A slice at row `o` of a 32-row array lies inside it. -/
theorem row_lt {o : ℕ} (hs : S32x1024.Slices ![o, 0] S1x1024) : o < 32 := hs.2 0

/-- A slice at column `o` of a 32-column array lies inside it. -/
theorem col_lt {o : ℕ} (hs : S128x32.Slices ![0, o] S128x1) : o < 32 := hs.2 1

/-- One term of the distance: row `o` of the keys spread down the rows, column `o` of the queries spread along the
    columns, the absolute value of their difference. At (p, q) it is |K[o, q] − Q[p, o]|. -/
theorem dist_term (K : FVec Ideal S32x1024 .f32) (Q : FVec Ideal S128x32 .f32) (o : ℕ)
    (hs1 : S32x1024.Slices ![o, 0] S1x1024) (hs2 : S128x32.Slices ![0, o] S128x1)
    (hb1 : S1x1024.Broadcasts S128x1024) (hb2 : S128x1.Broadcasts S128x1024) (p : Fin 128) (q : Fin 1024) :
    absf (subf (broadcastTo S128x1024 (extractStridedSlice S1x1024 ![o, 0] K hs1) hb1)
        (broadcastTo S128x1024 (extractStridedSlice S128x1 ![0, o] Q hs2) hb2)) (ix2 p q)
      = absE (K (ix2 ⟨o, row_lt hs1⟩ q) - Q (ix2 p ⟨o, col_lt hs2⟩)) := by
  show max
      (broadcastTo S128x1024 (extractStridedSlice S1x1024 ![o, 0] K hs1) hb1 (ix2 p q)
        - broadcastTo S128x1024 (extractStridedSlice S128x1 ![0, o] Q hs2) hb2 (ix2 p q))
      (-(broadcastTo S128x1024 (extractStridedSlice S1x1024 ![o, 0] K hs1) hb1 (ix2 p q)
        - broadcastTo S128x1024 (extractStridedSlice S128x1 ![0, o] Q hs2) hb2 (ix2 p q))) = _
  rw [broadcastTo_1b_ab_apply, broadcastTo_a1_ab_apply,
    slice2_axis0_apply o K hs1 (0 : Fin 1) q ⟨o, row_lt hs1⟩ rfl,
    slice2_axis1_apply o Q hs2 p (0 : Fin 1) ⟨o, col_lt hs2⟩ rfl]
  rfl

/-- The hyperbolic tangent of a vector, entry by entry. -/
theorem tanh_apply {s : Shape} {φ : FTy} (a : FVec Ideal s φ) (i : s.Idx) : tanh a i = Ideal.tanh (a i) := rfl

/-! ## The body's stored value at an index -/

theorem hz3 : (![0, 0, 0] : Fin 3 → Nat) = fun _ => 0 := funext fun a => by fin_cases a <;> rfl
theorem hz2 : (![0, 0] : Fin 2 → Nat) = fun _ => 0 := funext fun a => by fin_cases a <;> rfl

theorem out_eq (x0 : Vec Ideal S1x1024x32 .f32) (x1 : Vec Ideal S1x128x32 .f32) (x2 : Vec Ideal S1x1024x64 .f32)
    (x3 : Vec Ideal S32x32 .f32) (x4 : Vec Ideal S1x32 .f32) (p : Fin 128) (v : Fin 64) :
    out0_5 (F := Ideal) x0 x1 x2 x3 x4 (ix3 (0 : Fin 1) p v)
      = core (fun h d => x3 (ix2 h d)) (fun n d => x0 (ix3 (0 : Fin 1) n d)) (fun d => x1 (ix3 (0 : Fin 1) p d))
          (fun n => x2 (ix3 (0 : Fin 1) n v)) := by
  unfold out0_5
  rw [View.canon_unit_zero hz3]
  simp only [View.ld_unit_zero (S := S1x1024x32) hz3, View.ld_unit_zero (S := S1x128x32) hz3,
    View.ld_unit_zero (S := S1x1024x64) hz3, View.ld_unit_zero (S := S32x32) hz2]
  unfold k0_pay1
  refine (shapeCast_ab_1ab_apply _ shapeCasts_S128x64_S1x128x64 (0 : Fin 1) p v).trans ?_
  refine (weighted_apply _ _ p v).trans ?_
  unfold core
  refine Finset.sum_congr rfl fun n _ => ?_
  unfold k0_pay14 k0_pay13 k0_pay12 k0_pay11 k0_pay10 k0_pay9 k0_pay8 k0_pay7 k0_pay6 k0_pay2
  simp only [truncf_apply, addf_apply, subf_apply, broadcast_apply, tanh_apply, dist_term]
  have hK : ∀ (h : Fin 32) (n : Fin 1024), k0_pay4 (F := Ideal) x0 x3 (ix2 h n)
      = cproj (fun h d => x3 (ix2 h d)) (fun d => x0 (ix3 (0 : Fin 1) n d)) h := fun h n => by
    rw [keys_apply]; unfold cproj; exact Finset.sum_congr rfl fun d _ => mul_comm _ _
  have hQ : ∀ (p : Fin 128) (h : Fin 32), k0_pay5 (F := Ideal) x1 x3 (ix2 p h)
      = cproj (fun h d => x3 (ix2 h d)) (fun d => x1 (ix3 (0 : Fin 1) p d)) h := fun p h => by
    rw [queries_apply]; rfl
  simp only [hK, hQ]
  rw [shapeCast_1ab_ab_apply]
  refine congrArg (· * x2 (ix3 (0 : Fin 1) n v)) ?_
  unfold cwgt
  refine congrArg₂ (· + ·) rfl (congrArg Ideal.tanh ?_)
  rw [show (FloatOps.ofBits (F := Ideal) .f32 0#32 : EReal) = 0 from Ideal.ofBits_zero_f32, zero_sub]
  refine congrArg Neg.neg ?_
  unfold cdist
  iterate 32 (rw [Fin.sum_univ_castSucc]; refine congrArg₂ (· + ·) ?_ rfl)
  exact (Fin.sum_univ_zero _).symm

end Cert.Laplace.KernelPayload

end
-- ==== Proof.KernelValue.lean ====
/-
  From what each grid point writes to the whole output array, for the kernel of the Laplace (L1-distance) attention.

  The grid is 4 × 8: point (b, mi) handles batch b and the 128 target rows 128·mi … 128·mi + 127. It reads the whole
  batch b of the contexts x1 and of the values r, the 128 target rows of x2, the whole map W, and writes the block of
  the output at batch b, rows 128·mi … 128·mi + 127. What the body computes from the blocks it is handed is taken as
  a hypothesis (PayloadFact): entry (0, p, v) of its result is "core" of the blocks' accessors. Here: each block's
  accessor is the array's accessor at the point's coordinates, so each point writes its block of the one function G of
  the argument arrays; the 32 blocks cover the output array; hence the output array ends as G of the arguments.
-/
import proofs.«104317_j13572096656114_2_alg».proof.Proof.Gen.KernelIdeal.Value
import proofs.«104317_j13572096656114_2_alg».proof.Proof.Spec
import Idealize.ShloMosaic.Lib.Pipeline.Value
import Idealize.ShloMosaic.Lib.ValueIdx

noncomputable section

namespace Cert.Laplace.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What the kernel body computes from the blocks it is handed: entry (0, p, v) of the output block is the attention
    sum for target row p and value column v, through the blocks' own accessors. -/
def PayloadFact : Prop := ∀ (x0 : Vec Ideal S1x1024x32 .f32) (x1 : Vec Ideal S1x128x32 .f32) (x2 : Vec Ideal S1x1024x64 .f32) (x3 : Vec Ideal S32x32 .f32) (x4 : Vec Ideal S1x32 .f32) (p : Fin 128) (v : Fin 64),
    out0_5 (F := Ideal) x0 x1 x2 x3 x4 (ix3 (0 : Fin 1) p v) = Cert.Laplace.core (fun h d => x3 (ix2 h d)) (fun n d => x0 (ix3 (0 : Fin 1) n d)) (fun d => x1 (ix3 (0 : Fin 1) p d)) (fun n => x2 (ix3 (0 : Fin 1) n v))

/-! ## The index maps over the grid -/

/-- The printed index maps, decided over the 32 points: the contexts' and the values' windows sit at the output's batch,
    whole along the rows; the targets' window moves with the output's; the map W is one block; the output's batch is
    below 4 and its row block below 8. -/
theorem idx_facts : ∀ t : Fin cfg0.N,
      win0_0.index t (0 : Fin 3) = win0_5.index t (0 : Fin 3) ∧ win0_0.index t (1 : Fin 3) = 0 ∧ win0_0.index t (2 : Fin 3) = 0
    ∧ win0_1.index t (0 : Fin 3) = win0_5.index t (0 : Fin 3) ∧ win0_1.index t (1 : Fin 3) = win0_5.index t (1 : Fin 3) ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 2) = 0 ∧ win0_3.index t (1 : Fin 2) = 0
    ∧ win0_5.index t (0 : Fin 3) ≤ 3 ∧ win0_5.index t (1 : Fin 3) ≤ 7 ∧ win0_5.index t (2 : Fin 3) = 0 :=
  (by decide +kernel : ∀ t : Fin grid0.N, _)

/-- Every (batch, row block) is some point's. -/
theorem idx_onto : ∀ (q0 : Fin 4) (q1 : Fin 8), ∃ t : Fin cfg0.N, win0_5.index t = ![q0.val, q1.val, 0] :=
  (by decide +kernel : ∀ (q0 : Fin 4) (q1 : Fin 8), ∃ t : Fin grid0.N, win0_5.index t = ![q0.val, q1.val, 0])

/-! ## The blocks' accessors are the arrays' -/

/-- The contexts' block at point t, read at (0, n, d), is the array as launched at (b, n, d), b the point's batch. -/
theorem ctx_read (c : Dev nD) (t : Fin cfg0.N) (b : Fin 4) (hb : win0_0.index t (0 : Fin 3) = b.val)
    (h1 : win0_0.index t (1 : Fin 3) = 0) (h2 : win0_0.index t (2 : Fin 3) = 0) (n : Fin 1024) (d : Fin 32) :
    (iblk m c 0 t : Vec Ideal S1x1024x32 .f32) (ix3 (0 : Fin 1) n d)
      = (m ((c : Thread nD τ).loc main_arg0) : S4x1024x32.Idx → EReal) (ix3 b n d) := by
  unfold iblk
  rw [View.read_apply]
  show V m c main_arg0 _ = _
  refine (congrFun (V_main_arg0 m c) _).trans ?_
  refine congrArg _ ?_
  funext a
  apply Fin.ext
  match a with
  | ⟨0, _⟩ => show win0_0.index t (0 : Fin 3) * 1 + 1 * 0 = b.val; omega
  | ⟨1, _⟩ => show win0_0.index t (1 : Fin 3) * 1024 + 1 * n.val = n.val; omega
  | ⟨2, _⟩ => show win0_0.index t (2 : Fin 3) * 32 + 1 * d.val = d.val; omega

/-- The targets' block at point t, read at (0, p, d), is the array as launched at (b, 128·mi + p, d), (b, mi) the
    point's batch and row block. -/
theorem tgt_read (c : Dev nD) (t : Fin cfg0.N) (b : Fin 4) (mi : Fin 8) (hb : win0_1.index t (0 : Fin 3) = b.val)
    (h1 : win0_1.index t (1 : Fin 3) = mi.val) (h2 : win0_1.index t (2 : Fin 3) = 0) (p : Fin 128) (d : Fin 32)
    (R : Fin 1024) (hR : R.val = 128 * mi.val + p.val) :
    (iblk m c 1 t : Vec Ideal S1x128x32 .f32) (ix3 (0 : Fin 1) p d)
      = (m ((c : Thread nD τ).loc main_arg1) : S4x1024x32.Idx → EReal) (ix3 b R d) := by
  unfold iblk
  rw [View.read_apply]
  show V m c main_arg1 _ = _
  refine (congrFun (V_main_arg1 m c) _).trans ?_
  refine congrArg _ ?_
  funext a
  apply Fin.ext
  match a with
  | ⟨0, _⟩ => show win0_1.index t (0 : Fin 3) * 1 + 1 * 0 = b.val; omega
  | ⟨1, _⟩ => show win0_1.index t (1 : Fin 3) * 128 + 1 * p.val = R.val; omega
  | ⟨2, _⟩ => show win0_1.index t (2 : Fin 3) * 32 + 1 * d.val = d.val; omega

/-- The values' block at point t, read at (0, n, v), is the array as launched at (b, n, v). -/
theorem val_read (c : Dev nD) (t : Fin cfg0.N) (b : Fin 4) (hb : win0_2.index t (0 : Fin 3) = b.val)
    (h1 : win0_2.index t (1 : Fin 3) = 0) (h2 : win0_2.index t (2 : Fin 3) = 0) (n : Fin 1024) (v : Fin 64) :
    (iblk m c 2 t : Vec Ideal S1x1024x64 .f32) (ix3 (0 : Fin 1) n v)
      = (m ((c : Thread nD τ).loc main_arg2) : S4x1024x64.Idx → EReal) (ix3 b n v) := by
  unfold iblk
  rw [View.read_apply]
  show V m c main_arg2 _ = _
  refine (congrFun (V_main_arg2 m c) _).trans ?_
  refine congrArg _ ?_
  funext a
  apply Fin.ext
  match a with
  | ⟨0, _⟩ => show win0_2.index t (0 : Fin 3) * 1 + 1 * 0 = b.val; omega
  | ⟨1, _⟩ => show win0_2.index t (1 : Fin 3) * 1024 + 1 * n.val = n.val; omega
  | ⟨2, _⟩ => show win0_2.index t (2 : Fin 3) * 64 + 1 * v.val = v.val; omega

/-- The map's block at any point is the whole array as launched. -/
theorem map_read (c : Dev nD) (t : Fin cfg0.N) (h0 : win0_3.index t (0 : Fin 2) = 0) (h1 : win0_3.index t (1 : Fin 2) = 0)
    (h : Fin 32) (d : Fin 32) :
    (iblk m c 3 t : Vec Ideal S32x32 .f32) (ix2 h d)
      = (m ((c : Thread nD τ).loc main_arg3) : S32x32.Idx → EReal) (ix2 h d) := by
  unfold iblk
  rw [View.read_apply]
  show V m c main_arg3 _ = _
  refine (congrFun (V_main_arg3 m c) _).trans ?_
  refine congrArg _ ?_
  funext a
  apply Fin.ext
  match a with
  | ⟨0, _⟩ => show win0_3.index t (0 : Fin 2) * 32 + 1 * h.val = h.val; omega
  | ⟨1, _⟩ => show win0_3.index t (1 : Fin 2) * 32 + 1 * d.val = d.val; omega

/-! ## What a point writes -/

/-- One entry of what a point writes: when the blocks' accessors are those of the arrays at the point's batch b and row
    block mi, entry j = (0, p, v) of the body's result is G at (b, 128·mi + p, v). -/
theorem point_eq (hpay : PayloadFact) (x0 : Vec Ideal S1x1024x32 .f32) (x1 : Vec Ideal S1x128x32 .f32)
    (x2 : Vec Ideal S1x1024x64 .f32) (x3 : Vec Ideal S32x32 .f32) (x4 : Vec Ideal S1x32 .f32)
    (W : SW.Idx → EReal) (a1 a2 : SX.Idx → EReal) (r : SR.Idx → EReal) (b : Fin 4) (mi : Fin 8)
    (h0 : ∀ (n : Fin 1024) (d : Fin 32), x0 (ix3 (0 : Fin 1) n d) = a1 (ix3 b n d))
    (h1 : ∀ (p : Fin 128) (d : Fin 32) (R : Fin 1024), R.val = 128 * mi.val + p.val → x1 (ix3 (0 : Fin 1) p d) = a2 (ix3 b R d))
    (h2 : ∀ (n : Fin 1024) (v : Fin 64), x2 (ix3 (0 : Fin 1) n v) = r (ix3 b n v))
    (h3 : ∀ (h d : Fin 32), x3 (ix2 h d) = W (ix2 h d))
    (j : S1x128x64.Idx) (i : SR.Idx) (hi0 : (i 0).val = b.val) (hi1 : (i 1).val = 128 * mi.val + (j 1).val)
    (hi2 : (i 2).val = (j 2).val) :
    out0_5 (F := Ideal) x0 x1 x2 x3 x4 j = G W a1 a2 r i := by
  have hj0 : (j 0).val < 1 := (j 0).isLt
  have hj1 : (j 1).val < 128 := (j 1).isLt
  have hj2 : (j 2).val < 64 := (j 2).isLt
  have hi1' : (i 1).val < 1024 := (i 1).isLt
  have hj : j = ix3 (0 : Fin 1) (⟨(j 1).val, hj1⟩ : Fin 128) (⟨(j 2).val, hj2⟩ : Fin 64) := by
    funext a
    apply Fin.ext
    match a with
    | ⟨0, _⟩ => show (j 0).val = 0; omega
    | ⟨1, _⟩ => rfl
    | ⟨2, _⟩ => rfl
  have hi : i = ix3 b (⟨(i 1).val, hi1'⟩ : Fin 1024) (⟨(j 2).val, hj2⟩ : Fin 64) := by
    funext a
    apply Fin.ext
    match a with
    | ⟨0, _⟩ => exact hi0
    | ⟨1, _⟩ => rfl
    | ⟨2, _⟩ => exact hi2
  refine (congrArg (out0_5 (F := Ideal) x0 x1 x2 x3 x4) hj).trans ?_
  refine (hpay x0 x1 x2 x3 x4 _ _).trans ?_
  refine Eq.trans ?_ (congrArg (G W a1 a2 r) hi).symm
  refine Eq.trans ?_ (G_ix3 W a1 a2 r b _ _).symm
  unfold Gat
  have e0 : (fun h d => x3 (ix2 h d)) = (fun h d => W (ix2 h d)) := funext fun h => funext fun d => h3 h d
  have e1 : (fun n d => x0 (ix3 (0 : Fin 1) n d)) = (fun n d => a1 (ix3 b n d)) := funext fun n => funext fun d => h0 n d
  have e2 : (fun d => x1 (ix3 (0 : Fin 1) (⟨(j 1).val, hj1⟩ : Fin 128) d)) = (fun d => a2 (ix3 b (⟨(i 1).val, hi1'⟩ : Fin 1024) d)) :=
    funext fun d => h1 _ d _ hi1
  have e3 : (fun n => x2 (ix3 (0 : Fin 1) n (⟨(j 2).val, hj2⟩ : Fin 64))) = (fun n => r (ix3 b n (⟨(j 2).val, hj2⟩ : Fin 64))) :=
    funext fun n => h2 n _
  rw [e0, e1, e2, e3]

/-- WHAT POINT t WRITES BACK is its block of G of the argument arrays as launched. -/
theorem flushed_eq (hpay : PayloadFact) (c : Dev nD) (t : Fin cfg0.N) :
    (dats m 0 c).flushed 5 t = ((cfg0.win 5).blk t).view.read (Elt Ideal)
      (G (m ((c : Thread nD τ).loc main_arg3)) (m ((c : Thread nD τ).loc main_arg0)) (m ((c : Thread nD τ).loc main_arg1))
        (m ((c : Thread nD τ).loc main_arg2))) := by
  rw [Value.flushed5]
  obtain ⟨e00, e01, e02, e10, e11, e12, e20, e21, e22, e30, e31, l0, l1, e52⟩ := idx_facts t
  funext j
  show out0_5 (iblk m c 0 t) (iblk m c 1 t) (iblk m c 2 t) (iblk m c 3 t) (iblk m c 4 t) j
    = G _ _ _ _ (((cfg0.win 5).blk t).view.emb j)
  refine point_eq hpay _ _ _ _ _ _ _ _ _ ⟨win0_5.index t (0 : Fin 3), by omega⟩ ⟨win0_5.index t (1 : Fin 3), by omega⟩
    (fun n d => ctx_read m c t _ e00 e01 e02 n d) (fun p d R hR => tgt_read m c t _ _ e10 e11 e12 p d R hR)
    (fun n v => val_read m c t _ e20 e21 e22 n v) (fun h d => map_read m c t e30 e31 h d) j _ ?_ ?_ ?_
  · show win0_5.index t (0 : Fin 3) * 1 + 1 * (j 0).val = win0_5.index t (0 : Fin 3)
    have hj0 : (j 0).val < 1 := (j 0).isLt
    omega
  · show win0_5.index t (1 : Fin 3) * 128 + 1 * (j 1).val = 128 * win0_5.index t (1 : Fin 3) + (j 1).val
    omega
  · show win0_5.index t (2 : Fin 3) * 64 + 1 * (j 2).val = (j 2).val
    omega

/-! ## The blocks cover the array -/

/-- An index of the output array is in point t's block iff each coordinate is in the block's range on its axis. -/
theorem mem_blk (t : Fin cfg0.N) (i : S4x1024x64.Idx) :
    i ∈ ((cfg0.win 5).blk t).view.set ↔ ∀ a : Fin 3, win0_5.index t a * S1x128x64.size a ≤ (i a).val
      ∧ (i a).val < win0_5.index t a * S1x128x64.size a + S1x128x64.size a := by
  show i ∈ ((View.whole main_v1).slice (win0_5.rect t)).set ↔ _
  rw [View.set_slice_whole, Rect.mem_set_unit]
  exact Iff.rfl

/-- Every index (b, R, v) of the output array is in the block of the point with coordinates (b, R / 128). -/
theorem cover (i : S4x1024x64.Idx) :
    ∃ t : Fin cfg0.N, (cfg0.win 5).flush t = true ∧ i ∈ ((cfg0.win 5).blk t).view.set := by
  have hi0 : (i 0).val < 4 := (i 0).isLt
  have hi1 : (i 1).val < 1024 := (i 1).isLt
  have hi2 : (i 2).val < 64 := (i 2).isLt
  obtain ⟨t, ht⟩ := idx_onto ⟨(i 0).val, hi0⟩ ⟨(i 1).val / 128, by omega⟩
  have q0 : win0_5.index t (0 : Fin 3) = (i 0).val := congrFun ht 0
  have q1 : win0_5.index t (1 : Fin 3) = (i 1).val / 128 := congrFun ht 1
  have q2 : win0_5.index t (2 : Fin 3) = 0 := congrFun ht 2
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 128 ≤ (i 1).val ∧ (i 1).val < win0_5.index t (1 : Fin 3) * 128 + 128
    omega
  | ⟨2, _⟩ =>
    show win0_5.index t (2 : Fin 3) * 64 ≤ (i 2).val ∧ (i 2).val < win0_5.index t (2 : Fin 3) * 64 + 64
    omega

/-! ## The array after the run, and the run -/

/-- THE OUTPUT ARRAY after the run is G of the argument arrays as launched. -/
theorem final (hpay : PayloadFact) (c : Dev nD) :
    (dats m 0 c).arrAt 5 cfg0.N
      = G (m ((c : Thread nD τ).loc main_arg3)) (m ((c : Thread nD τ).loc main_arg0)) (m ((c : Thread nD τ).loc main_arg1))
          (m ((c : Thread nD τ).loc main_arg2)) :=
  (dats m 0 c).arrAt_eq_of_cover 5 _ (fun t _ => flushed_eq m hpay c t) cover

/-- The run, read: the result array at G of the arguments, the arguments unchanged. -/
theorem run (hpay : PayloadFact) (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = Cert.Laplace.G (m ((c : Thread nD τ).loc main_arg3)) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m hpay c), (h c).2⟩) (Value.run_blocks m ρ)

/-- info: 'Cert.Laplace.KernelValue.run' depends on axioms: [propext, Classical.choice, Quot.sound] -/
#guard_msgs in #print axioms run

end Cert.Laplace.KernelValue

end
-- ==== Proof.RefValue.lean ====
/-
  The reference program, read one operation at a time, is the function GB: with k = x1·Wᵀ + β and q = x2·Wᵀ + β,
  out[b, m, v] = Σ_n (1 + tanh(−(0 + Σ_h |(k[b,n,h] − q[b,m,h]) / 1|))) · r[b, n, v].
-/
import proofs.«104317_j13572096656114_2_alg».proof.Proof.Gen.ReferenceIdeal.Read
import proofs.«104317_j13572096656114_2_alg».proof.Proof.Spec

noncomputable section

namespace Cert.Laplace.RefValue

open Idealize.ShloMosaic Idealize.ShloMosaic.ValueIdx Cert.ReferenceIdeal Cert.ReferenceIdeal.Read

/-! ## The arrays' types -/

abbrev VX : Type := (⟨S4x1024x32, .f32⟩ : BufTy).Contents (Elt Ideal)
abbrev VR : Type := (⟨S4x1024x64, .f32⟩ : BufTy).Contents (Elt Ideal)
abbrev VW : Type := (⟨S32x32, .f32⟩ : BufTy).Contents (Elt Ideal)
abbrev VB : Type := (⟨S32, .f32⟩ : BufTy).Contents (Elt Ideal)

/-! ## Where each operation reads its operands -/

/-- The context projection at (b, n, h) reads x1[b, n, d] ... -/
theorem lidx0 (b : Fin 4) (n : Fin 1024) (h d : Fin 32) : lidx_main_v0 (ix3 b n h) d = ix3 b n d :=
  funext fun a => Fin.ext (by match a with | ⟨0, _⟩ => rfl | ⟨1, _⟩ => rfl | ⟨2, _⟩ => rfl)

/-- ... and W[h, d]. -/
theorem ridx0 (b : Fin 4) (n : Fin 1024) (h d : Fin 32) : ridx_main_v0 (ix3 b n h) d = ix2 h d :=
  funext fun a => Fin.ext (by match a with | ⟨0, _⟩ => rfl | ⟨1, _⟩ => rfl)

/-- The target projection reads x2[b, n, d] and W[h, d] likewise. -/
theorem lidx4 (b : Fin 4) (n : Fin 1024) (h d : Fin 32) : lidx_main_v4 (ix3 b n h) d = ix3 b n d :=
  funext fun a => Fin.ext (by match a with | ⟨0, _⟩ => rfl | ⟨1, _⟩ => rfl | ⟨2, _⟩ => rfl)

theorem ridx4 (b : Fin 4) (n : Fin 1024) (h d : Fin 32) : ridx_main_v4 (ix3 b n h) d = ix2 h d :=
  funext fun a => Fin.ext (by match a with | ⟨0, _⟩ => rfl | ⟨1, _⟩ => rfl)

/-- The bias broadcast over [4, 1024, 32] reads β[h]. -/
theorem bidx2 (b : Fin 4) (n : Fin 1024) (h : Fin 32) : idx_main_v1 (idx_main_v2 (ix3 b n h)) = ix1 h :=
  funext fun a => Fin.ext (by match a with | ⟨0, _⟩ => rfl)

theorem bidx6 (b : Fin 4) (n : Fin 1024) (h : Fin 32) : idx_main_v5 (idx_main_v6 (ix3 b n h)) = ix1 h :=
  funext fun a => Fin.ext (by match a with | ⟨0, _⟩ => rfl)

/-- In the four-axis difference the context projection is read at (b, n, h) ... -/
theorem kidx (b : Fin 4) (m n : Fin 1024) (h : Fin 32) : idx_main_v8 (idx_main_v10 (ix4 b m n h)) = ix3 b n h :=
  funext fun a => Fin.ext (by match a with | ⟨0, _⟩ => rfl | ⟨1, _⟩ => rfl | ⟨2, _⟩ => rfl)

/-- ... and the target projection at (b, m, h). -/
theorem qidx (b : Fin 4) (m n : Fin 1024) (h : Fin 32) : idx_main_v9 (idx_main_v11 (ix4 b m n h)) = ix3 b m h :=
  funext fun a => Fin.ext (by match a with | ⟨0, _⟩ => rfl | ⟨1, _⟩ => rfl | ⟨2, _⟩ => rfl)

/-- The sum over the last axis reads (b, m, n, h). -/
theorem sidx (b : Fin 4) (m n : Fin 1024) (h : Fin 32) : idx_main_v16 (ix3 b m n) h = ix4 b m n h :=
  funext fun a => Fin.ext (by match a with | ⟨0, _⟩ => rfl | ⟨1, _⟩ => rfl | ⟨2, _⟩ => rfl | ⟨3, _⟩ => rfl)

/-- The last contraction reads the weight at (b, m, n) ... -/
theorem lidx21 (b : Fin 4) (m : Fin 1024) (v : Fin 64) (n : Fin 1024) : lidx_main_v21 (ix3 b m v) n = ix3 b m n :=
  funext fun a => Fin.ext (by match a with | ⟨0, _⟩ => rfl | ⟨1, _⟩ => rfl | ⟨2, _⟩ => rfl)

/-- ... and r at (b, n, v). -/
theorem ridx21 (b : Fin 4) (m : Fin 1024) (v : Fin 64) (n : Fin 1024) : ridx_main_v21 (ix3 b m v) n = ix3 b n v :=
  funext fun a => Fin.ext (by match a with | ⟨0, _⟩ => rfl | ⟨1, _⟩ => rfl | ⟨2, _⟩ => rfl)

/-! ## The stages at an index -/

/-- k[b, n, h] = Σ_d x1[b, n, d] · W[h, d] + β[h]. -/
theorem k_at (x0 : VX) (x3 : VW) (x4 : VB) (b : Fin 4) (n : Fin 1024) (h : Fin 32) :
    val_main_v3 (F := Ideal) x0 x3 x4 (ix3 b n h)
      = cproj (fun h d => x3 (ix2 h d)) (fun d => x0 (ix3 b n d)) h + x4 (ix1 h) := by
  rw [val_main_v3_apply, val_main_v0_apply, val_main_v2_apply, val_main_v1_apply, bidx2, Ideal.addf_def]
  unfold cproj
  refine congrArg (· + x4 (ix1 h)) (Finset.sum_congr rfl fun d _ => ?_)
  rw [lidx0, ridx0]

/-- q[b, m, h] = Σ_d x2[b, m, d] · W[h, d] + β[h]. -/
theorem q_at (x1 : VX) (x3 : VW) (x4 : VB) (b : Fin 4) (m : Fin 1024) (h : Fin 32) :
    val_main_v7 (F := Ideal) x1 x3 x4 (ix3 b m h)
      = cproj (fun h d => x3 (ix2 h d)) (fun d => x1 (ix3 b m d)) h + x4 (ix1 h) := by
  rw [val_main_v7_apply, val_main_v4_apply, val_main_v6_apply, val_main_v5_apply, bidx6, Ideal.addf_def]
  unfold cproj
  refine congrArg (· + x4 (ix1 h)) (Finset.sum_congr rfl fun d _ => ?_)
  rw [lidx4, ridx4]

/-- |(k[b, n, h] − q[b, m, h]) / 1| at (b, m, n, h). -/
theorem abs_at (x0 x1 : VX) (x3 : VW) (x4 : VB) (b : Fin 4) (m n : Fin 1024) (h : Fin 32) :
    val_main_v15 (F := Ideal) x0 x1 x3 x4 (ix4 b m n h)
      = absE (Ideal.div (val_main_v3 (F := Ideal) x0 x3 x4 (ix3 b n h) - val_main_v7 (F := Ideal) x1 x3 x4 (ix3 b m h)) one32) := by
  rw [val_main_v15_apply, val_main_v14_apply, val_main_v13_apply, val_main_cst_apply, val_main_v12_apply,
    val_main_v10_apply, val_main_v8_apply, kidx, val_main_v11_apply, val_main_v9_apply, qidx,
    Ideal.hostAbsf_def, Ideal.absf_def, Ideal.hostDivf_def, Ideal.subf_def, Ideal.ofBits_def]
  rfl

/-- The weight 1 + tanh(−(0 + Σ_h |…|)) at (b, m, n). -/
theorem w_at (x0 x1 : VX) (x3 : VW) (x4 : VB) (b : Fin 4) (m n : Fin 1024) :
    val_main_v20 (F := Ideal) x0 x1 x3 x4 (ix3 b m n)
      = one32 + Ideal.tanh (-(Ideal.ofBits .f32 0x00000000#32
          + ∑ h : Fin 32, val_main_v15 (F := Ideal) x0 x1 x3 x4 (ix4 b m n h))) := by
  rw [val_main_v20_apply, val_main_v19_apply, val_main_cst_1_apply, val_main_v18_apply, val_main_v17_apply,
    val_main_v16_apply, val_main_cst_0_apply, Ideal.addf_def, Ideal.hostUnary_tanh_def, Ideal.hostNegf_def,
    Ideal.negf_def, Ideal.ofBits_def, Ideal.ofBits_def]
  refine congrArg (fun s => one32 + Ideal.tanh (-(Ideal.ofBits .f32 0x00000000#32 + s))) (Finset.sum_congr rfl fun h _ => ?_)
  rw [sidx]

/-! ## The result -/

theorem ref_eq (x0 x1 : (⟨Cert.ReferenceIdeal.S4x1024x32, .f32⟩ : BufTy).Contents (Elt Ideal)) (x2 : (⟨Cert.ReferenceIdeal.S4x1024x64, .f32⟩ : BufTy).Contents (Elt Ideal)) (x3 : (⟨Cert.ReferenceIdeal.S32x32, .f32⟩ : BufTy).Contents (Elt Ideal)) (x4 : (⟨Cert.ReferenceIdeal.S32, .f32⟩ : BufTy).Contents (Elt Ideal)) :
    Cert.ReferenceIdeal.Read.val_main_v21 (F := Ideal) x0 x1 x2 x3 x4 = Cert.Laplace.GB x3 x4 x0 x1 x2 := by
  funext i
  obtain ⟨b, m, v, rfl⟩ : ∃ (b : Fin 4) (m : Fin 1024) (v : Fin 64), i = ix3 b m v := ⟨i 0, i 1, i 2, eq_ix3 i⟩
  rw [val_main_v21_apply, GB_ix3]
  unfold GatB coreB cdistB
  refine Finset.sum_congr rfl fun n _ => ?_
  rw [lidx21, ridx21, w_at]
  refine congrArg (fun s => (one32 + Ideal.tanh (-(Ideal.ofBits .f32 0x00000000#32 + s))) * x2 (ix3 b n v)) (Finset.sum_congr rfl fun h _ => ?_)
  rw [abs_at, k_at, q_at]

end Cert.Laplace.RefValue

end
-- ==== Proof.Finite.lean ====
/-
  The precondition makes every entry of x1, x2, W and β a real number.

  The precondition is the conjunction, over the five argument arrays a, of all(|a| < +∞): each array's absolute value is
  compared, entry by entry, with the f32 pattern 0x7F800000 (which denotes +∞ on the extended reals), and the comparisons
  are reduced by "and" from the constant 1. A reduction by "and" that came out 1 met a 1 at every entry, so
  max (a i) (−(a i)) < ⊤ for every i; on the extended reals that excludes a i = ⊤ (the maximum is ⊤) and a i = ⊥ (then
  −(a i) = ⊤), which leaves the real numbers.
-/
import proofs.«104317_j13572096656114_2_alg».proof.Pre_finite_inputs
import proofs.«104317_j13572096656114_2_alg».proof.Proof.Spec
import Idealize.ShloMosaic.Lib.ReduceAll
import Idealize.ShloMosaic.PureOps.Ideal

noncomputable section

namespace Cert.Laplace.FiniteInputs

open Idealize.ShloMosaic

/-- The f32 pattern 0x7F800000 (sign 0, exponent all ones, fraction 0) denotes +∞. -/
theorem inf32 : Ideal.ofBits .f32 0x7F800000#32 = (⊤ : EReal) := by
  simp [Ideal.ofBits, Ideal.ieee]

/-- An extended real whose absolute value max x (−x) lies below +∞ is a real number: at x = ⊤ the maximum is ⊤, and at
    x = ⊥ it is −⊥ = ⊤. -/
theorem real_of_abs_lt_top (x : EReal) (h : max x (-x) < ⊤) : x ≠ ⊤ ∧ x ≠ ⊥ := by
  refine ⟨?_, ?_⟩
  · rintro rfl; simp at h
  · rintro rfl; simp at h

/-- The rank-0 shape has one index. -/
instance : Subsingleton Cert.Pre_finite_inputs.S_.Idx := ⟨fun a b => funext fun d => d.elim0⟩

/-- all(|a| < +∞) = true makes every entry of a real, for an array a of any shape s: the two side facts of the printed
    operations (a scalar broadcasts to s; s reduces to the scalar shape over the listed axes) are hypotheses. -/
theorem finite_of_all {s : Shape} (a : FVec Ideal s .f32)
    (hb : Cert.Pre_finite_inputs.S_.BroadcastsInDim s (![] : Fin 0 → Fin s.rank))
    {axes : List (Fin s.rank)} (hr : s.ReducesTo axes Cert.Pre_finite_inputs.S_) (hu : 0 < Cert.Pre_finite_inputs.S_.numel)
    (e : Host.reduce IntOp.andi
          (cmpf .olt (Host.absf a) (broadcastInDim s ![] hb (constant (F := Ideal) Cert.Pre_finite_inputs.S_ .f32 0x7F800000#32)))
          (constantI Cert.Pre_finite_inputs.S_ 1 1#1) hr hu ValueIdx.ix0 = 1#1) :
    Cert.Laplace.Finite a := by
  intro i
  -- the reduction by "and" is 1, so the comparison at entry i is 1
  have hi := Host.reduce_andi_all _ _ hr hu _ e i
  -- that comparison is |a i| < (the pattern of +∞), on the extended reals' order
  have h2 : Ideal.cmp .olt (max (a i) (-(a i))) (Ideal.ofBits .f32 0x7F800000#32) = 1#1 := hi
  rw [inf32] at h2
  have hlt : max (a i) (-(a i)) < ⊤ := by
    unfold Ideal.cmp at h2
    have h3 : decide (max (a i) (-(a i)) < ⊤) = true := by
      revert h2
      cases decide (max (a i) (-(a i)) < ⊤) <;> simp
    exact of_decide_eq_true h3
  exact real_of_abs_lt_top _ hlt

/-- The precondition all(|x1| < ∞) ∧ all(|x2| < ∞) ∧ all(|r| < ∞) ∧ all(|W| < ∞) ∧ all(|β| < ∞), read back: every entry
    of x1, x2, W and β is a real number (the conjunct on r is not used). -/
theorem finite_of_pre [Cert.Pre_finite_inputs.Facts] (a0 a1 : FVec Ideal Cert.Pre_finite_inputs.S4x1024x32 .f32)
    (a2 : FVec Ideal Cert.Pre_finite_inputs.S4x1024x64 .f32) (a3 : FVec Ideal Cert.Pre_finite_inputs.S32x32 .f32)
    (a4 : FVec Ideal Cert.Pre_finite_inputs.S32 .f32)
    (h : Cert.Pre_finite_inputs.fn (F := Ideal) a0 a1 a2 a3 a4 = fun _ => 1#1) :
    Cert.Laplace.Finite a0 ∧ Cert.Laplace.Finite a1 ∧ Cert.Laplace.Finite a3 ∧ Cert.Laplace.Finite a4 := by
  have e := congrFun h ValueIdx.ix0
  dsimp only [Cert.Pre_finite_inputs.fn, Cert.Pre_finite_inputs.fn_part1, andi] at e
  -- the conjunction of five i1 words is 1 exactly when each is, nested as ((((c0 ∧ c1) ∧ c2) ∧ c3) ∧ c4)
  simp only [IntOp.andi_eq_one] at e
  obtain ⟨⟨⟨⟨h0, h1⟩, -⟩, h3⟩, h4⟩ := e
  exact ⟨finite_of_all a0 _ _ _ h0, finite_of_all a1 _ _ _ h1, finite_of_all a3 _ _ _ h3, finite_of_all a4 _ _ _ h4⟩

end Cert.Laplace.FiniteInputs

end
-- ==== Proof.lean ====
/-
  Laplace attention with a shared linear map: the kernel against its reference, on the extended reals.

  Both programs compute out[b, m, v] = Σ_n (1 + tanh(−Σ_h |k[b,n,h] − q[b,m,h]|)) · r[b, n, v] with k = x1·Wᵀ, q = x2·Wᵀ.
  The kernel does it block by block (one batch entry and 128 target rows per grid point, the 32 terms of the distance
  added one after another) and leaves the bias out; the reference adds the bias β to k and to q, divides their
  difference by 1 and sums over h at once. The two agree because (k + β) − (q + β) = k − q for real k, q, β — the inputs
  are finite, so the projections are real — and x / 1 = x; sums may be taken in any order.

  Spec.lean states the function (G) and the reference's own spelling (GB) and proves GB = G for real inputs;
  KernelPayload.lean reads the body's stored block at an entry; KernelValue.lean goes from the blocks to the whole output
  array; RefValue.lean reads the reference's result as GB; Finite.lean reads finiteness off the precondition. The three
  frames are the generated ones (the reference's is its run with the result dropped); nothing was rewritten by the
  idealization, so that conjunct is trivial.
-/
import proofs.«104317_j13572096656114_2_alg».proof.Defs
import proofs.«104317_j13572096656114_2_alg».proof.Proof.Gen.Kernel
import proofs.«104317_j13572096656114_2_alg».proof.Proof.Gen.Kernel.Skeleton
import proofs.«104317_j13572096656114_2_alg».proof.Proof.Gen.Kernel.Launch
import proofs.«104317_j13572096656114_2_alg».proof.Proof.Gen.Kernel.Points
import proofs.«104317_j13572096656114_2_alg».proof.Proof.Gen.Kernel.Frame
import proofs.«104317_j13572096656114_2_alg».proof.Proof.Gen.KernelIdeal
import proofs.«104317_j13572096656114_2_alg».proof.Proof.Gen.KernelIdeal.Skeleton
import proofs.«104317_j13572096656114_2_alg».proof.Proof.Gen.KernelIdeal.Launch
import proofs.«104317_j13572096656114_2_alg».proof.Proof.Gen.KernelIdeal.Points
import proofs.«104317_j13572096656114_2_alg».proof.Proof.Gen.KernelIdeal.Frame
import proofs.«104317_j13572096656114_2_alg».proof.Proof.Gen.ReferenceIdeal
import proofs.«104317_j13572096656114_2_alg».proof.Proof.Gen.Pre_finite_inputs
import proofs.«104317_j13572096656114_2_alg».proof.Proof.Gen.KernelIdeal.Value
import proofs.«104317_j13572096656114_2_alg».proof.Proof.Gen.ReferenceIdeal.Run
import proofs.«104317_j13572096656114_2_alg».proof.Proof.Gen.ReferenceIdeal.Read
import proofs.«104317_j13572096656114_2_alg».proof.Proof.Spec
import proofs.«104317_j13572096656114_2_alg».proof.Proof.KernelPayload
import proofs.«104317_j13572096656114_2_alg».proof.Proof.KernelValue
import proofs.«104317_j13572096656114_2_alg».proof.Proof.RefValue
import proofs.«104317_j13572096656114_2_alg».proof.Proof.Finite
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same array: the kernel with G of its arguments, the reference with GB of its own, which
    are the kernel's; the precondition makes x1, x2, W and β real, and then GB = G. -/
theorem algebraic : Cert.algebraic_KernelIdeal_ReferenceIdeal := by
  intro m ρ m' ρ' hpre hagree
  refine ⟨_, Cert.Laplace.KernelValue.run (fun x0 x1 x2 x3 x4 p v => Cert.Laplace.KernelPayload.out_eq x0 x1 x2 x3 x4 p v) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Laplace.RefValue.ref_eq,
    (hagree c).1, (hagree c).2.1, (hagree c).2.2.1, (hagree c).2.2.2.1, (hagree c).2.2.2.2]
  obtain ⟨h0, h1, h3, h4⟩ := Cert.Laplace.FiniteInputs.finite_of_pre _ _ _ _ _ (hpre c)
  exact Cert.Laplace.GB_eq_G _ h3 h4 h0 h1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
